-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S16x1 : Shape := ⟨2, ![16, 1]⟩
abbrev S27x32000x256 : Shape := ⟨3, ![27, 32000, 256]⟩
abbrev S512x256x256 : Shape := ⟨3, ![512, 256, 256]⟩
abbrev S512 : Shape := ⟨1, ![512]⟩
abbrev S27x256 : Shape := ⟨2, ![27, 256]⟩
abbrev S_ : Shape := ⟨0, ![]⟩

class Facts : Prop where
  bcast_S_S27x32000x256 : S_.BroadcastsInDim S27x32000x256 (![] : Fin 0 → Fin S27x32000x256.rank)
  reducesTo_S27x32000x256_S_d0_1_2 : S27x32000x256.ReducesTo [0, 1, 2] S_
  h_S_ : 0 < S_.numel
  bcast_S_S512x256x256 : S_.BroadcastsInDim S512x256x256 (![] : Fin 0 → Fin S512x256x256.rank)
  reducesTo_S512x256x256_S_d0_1_2 : S512x256x256.ReducesTo [0, 1, 2] S_
  bcast_S_S512 : S_.BroadcastsInDim S512 (![] : Fin 0 → Fin S512.rank)
  reducesTo_S512_S_d0 : S512.ReducesTo [0] S_
  bcast_S_S27x256 : S_.BroadcastsInDim S27x256 (![] : Fin 0 → Fin S27x256.rank)
  reducesTo_S27x256_S_d0_1 : S27x256.ReducesTo [0, 1] S_

variable [Facts]

def fn_part1 {F : FTy → Type} [FloatOps F] (main_arg6 : FVec F S512 .f32) (main_arg7 : FVec F S512 .f32) (main_v13 : IVec S_ 1) (main_v16 : IVec S27x256 1) : IVec S_ 1 :=
  let main_c_5 : IVec S_ 1 := constantI S_ 1 1#1
  let main_v17 : IVec S_ 1 := (fun x v => Host.reduce IntOp.andi x v reducesTo_S27x256_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : IVec S16x2048 32) (main_arg1 : IVec S16x1 32) (main_arg2 : FVec F S27x32000x256 .f32) (main_arg3 : FVec F S512x256x256 .f32) (main_arg4 : FVec F S512 .f32) (main_arg5 : FVec F S27x256 .f32) (main_arg6 : FVec F S512 .f32) (main_arg7 : FVec F S512 .f32) : IVec S_ 1 :=
  let main_v0 : FVec F S27x32000x256 .f32 := Host.absf main_arg2
  let main_cst : FVec F S_ .f32 := constant S_ .f32 0x7F800000#32
  let main_v1 : FVec F S27x32000x256 .f32 := broadcastInDim S27x32000x256 ![] bcast_S_S27x32000x256 main_cst
  let main_v2 : IVec S27x32000x256 1 := cmpf .olt main_v0 main_v1
  let main_c : IVec S_ 1 := constantI S_ 1 1#1
  let main_v3 : IVec S_ 1 := (fun x v => Host.reduce IntOp.andi x v reducesTo_S27x32000x256_S_d0_1_2 h_S_) main_v2 main_c
  let main_v4 : FVec F S512x256x256 .f32 := Host.absf main_arg3
  let main_cst_0 : FVec F S_ .f32 := constant S_ .f32 0x7F800000#32
  let main_v5 : FVec F S512x256x256 .f32 := broadcastInDim S512x256x256 ![] bcast_S_S512x256x256 main_cst_0
  let main_v6 : IVec S512x256x256 1 := cmpf .olt main_v4 main_v5
  let main_c_1 : IVec S_ 1 := constantI S_ 1 1#1
  let main_v7 : IVec S_ 1 := (fun x v => Host.reduce IntOp.andi x v reducesTo_S512x256x256_S_d0_1_2 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S27x256 .f32 := Host.absf main_arg5
  let main_cst_4 : FVec F S_ .f32 := constant S_ .f32 0x7F800000#32
  let main_v15 : FVec F S27x256 .f32 := broadcastInDim S27x256 ![] bcast_S_S27x256 main_cst_4
  let main_v16 : IVec S27x256 1 := cmpf .olt main_v14 main_v15
  fn_part1 (F := F) main_arg6 main_arg7 main_v13 main_v16
-- ==== Kernel.lean ====
abbrev S16x2048 : Shape := ⟨2, ![16, 2048]⟩
abbrev S16x1 : Shape := ⟨2, ![16, 1]⟩
abbrev S27x32000x256 : Shape := ⟨3, ![27, 32000, 256]⟩
abbrev S512x256x256 : Shape := ⟨3, ![512, 256, 256]⟩
abbrev S512 : Shape := ⟨1, ![512]⟩
abbrev S27x256 : Shape := ⟨2, ![27, 256]⟩
abbrev S16 : Shape := ⟨1, ![16]⟩
abbrev S_ : Shape := ⟨0, ![]⟩
abbrev S16x2048x1 : Shape := ⟨3, ![16, 2048, 1]⟩
abbrev S16x2048x2 : Shape := ⟨3, ![16, 2048, 2]⟩
abbrev S16x2048x256 : Shape := ⟨3, ![16, 2048, 256]⟩
abbrev S16x256 : Shape := ⟨2, ![16, 256]⟩
abbrev S131072x256 : Shape := ⟨2, ![131072, 256]⟩
abbrev S16x131072 : Shape := ⟨2, ![16, 131072]⟩
abbrev S4096x256 : Shape := ⟨2, ![4096, 256]⟩
abbrev S16x4096 : Shape := ⟨2, ![16, 4096]⟩
abbrev S16x512x256 : Shape := ⟨3, ![16, 512, 256]⟩
abbrev S16x2048x512 : Shape := ⟨3, ![16, 2048, 512]⟩
abbrev S1x2048x256 : Shape := ⟨3, ![1, 2048, 256]⟩
abbrev S1x512x256 : Shape := ⟨3, ![1, 512, 256]⟩
abbrev S1x2048x512 : Shape := ⟨3, ![1, 2048, 512]⟩
abbrev S2048x256 : Shape := ⟨2, ![2048, 256]⟩
abbrev S512x256 : Shape := ⟨2, ![512, 256]⟩
abbrev S2048x512 : Shape := ⟨2, ![2048, 512]⟩
abbrev S1x512 : Shape := ⟨2, ![1, 512]⟩
abbrev S2048 : Shape := ⟨1, ![2048]⟩
abbrev S2048x1 : Shape := ⟨2, ![2048, 1]⟩

abbrev nBuf : Space → Nat
  | .hbm => 42
  | .vmem => 14
  | .smem => 0
  | _ => 0

abbrev bufTy : (tb : Table) → Fin (tcTables nBuf tb) → BufTy
  | .hbm, ⟨0, _⟩ => ⟨S16x2048, .i32⟩
  | .hbm, ⟨1, _⟩ => ⟨S16x1, .i32⟩
  | .hbm, ⟨2, _⟩ => ⟨S27x32000x256, .f32⟩
  | .hbm, ⟨3, _⟩ => ⟨S512x256x256, .f32⟩
  | .hbm, ⟨4, _⟩ => ⟨S512, .f32⟩
  | .hbm, ⟨5, _⟩ => ⟨S27x256, .f32⟩
  | .hbm, ⟨6, _⟩ => ⟨S512, .f32⟩
  | .hbm, ⟨7, _⟩ => ⟨S512, .f32⟩
  | .hbm, ⟨8, _⟩ => ⟨S16, .i32⟩
  | .hbm, ⟨9, _⟩ => ⟨S16x1, .i32⟩
  | .hbm, ⟨10, _⟩ => ⟨S_, .i32⟩
  | .hbm, ⟨11, _⟩ => ⟨S16x1, .i32⟩
  | .hbm, ⟨12, _⟩ => ⟨S16x1, .i1⟩
  | .hbm, ⟨13, _⟩ => ⟨S_, .i32⟩
  | .hbm, ⟨14, _⟩ => ⟨S16x1, .i32⟩
  | .hbm, ⟨15, _⟩ => ⟨S16x1, .i32⟩
  | .hbm, ⟨16, _⟩ => ⟨S16x1, .i32⟩
  | .hbm, ⟨17, _⟩ => ⟨S_, .i32⟩
  | .hbm, ⟨18, _⟩ => ⟨S16x2048, .i32⟩
  | .hbm, ⟨19, _⟩ => ⟨S16x2048, .i1⟩
  | .hbm, ⟨20, _⟩ => ⟨S_, .i32⟩
  | .hbm, ⟨21, _⟩ => ⟨S16x2048, .i32⟩
  | .hbm, ⟨22, _⟩ => ⟨S16x2048, .i32⟩
  | .hbm, ⟨23, _⟩ => ⟨S16x2048, .i32⟩
  | .hbm, ⟨24, _⟩ => ⟨S16x2048, .i32⟩
  | .hbm, ⟨25, _⟩ => ⟨S16x2048x1, .i32⟩
  | .hbm, ⟨26, _⟩ => ⟨S16x2048x1, .i32⟩
  | .hbm, ⟨27, _⟩ => ⟨S16x2048x2, .i32⟩
  | .hbm, ⟨28, _⟩ => ⟨S16x2048x256, .f32⟩
  | .hbm, ⟨29, _⟩ => ⟨S_, .i32⟩
  | .hbm, ⟨30, _⟩ => ⟨S16, .i32⟩
  | .hbm, ⟨31, _⟩ => ⟨S16, .i1⟩
  | .hbm, ⟨32, _⟩ => ⟨S_, .i32⟩
  | .hbm, ⟨33, _⟩ => ⟨S16, .i32⟩
  | .hbm, ⟨34, _⟩ => ⟨S16, .i32⟩
  | .hbm, ⟨35, _⟩ => ⟨S16, .i32⟩
  | .hbm, ⟨36, _⟩ => ⟨S16x1, .i32⟩
  | .hbm, ⟨37, _⟩ => ⟨S16x256, .f32⟩
  | .hbm, ⟨38, _⟩ => ⟨S131072x256, .f32⟩
  | .hbm, ⟨39, _⟩ => ⟨S16x131072, .f32⟩
  | .hbm, ⟨40, _⟩ => ⟨S16x512x256, .f32⟩
  | .hbm, ⟨41, _⟩ => ⟨S16x2048x512, .f32⟩
  | .local _ .vmem, ⟨0, _⟩ => ⟨S16x256, .f32⟩
  | .local _ .vmem, ⟨1, _⟩ => ⟨S4096x256, .f32⟩
  | .local _ .vmem, ⟨2, _⟩ => ⟨S4096x256, .f32⟩
  | .local _ .vmem, ⟨3, _⟩ => ⟨S16x4096, .f32⟩
  | .local _ .vmem, ⟨4, _⟩ => ⟨S16x4096, .f32⟩
  | .local _ .vmem, ⟨5, _⟩ => ⟨S1x2048x256, .f32⟩
  | .local _ .vmem, ⟨6, _⟩ => ⟨S1x2048x256, .f32⟩
  | .local _ .vmem, ⟨7, _⟩ => ⟨S1x512x256, .f32⟩
  | .local _ .vmem, ⟨8, _⟩ => ⟨S1x512x256, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S1x2048x512, .f32⟩
  | .local _ .vmem, ⟨13, _⟩ => ⟨S1x2048x512, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S16x1_S16 : S16x1.ShapeCasts S16
  bcast_S16_S16x1_0 : S16.BroadcastsInDim S16x1 (![0] : Fin 1 → Fin S16x1.rank)
  bcast_S_S16x1 : S_.BroadcastsInDim S16x1 (![] : Fin 0 → Fin S16x1.rank)
  bcast_S_S16x2048 : S_.BroadcastsInDim S16x2048 (![] : Fin 0 → Fin S16x2048.rank)
  bcast_S16x1_S16x2048_0_1 : S16x1.BroadcastsInDim S16x2048 (![0, 1] : Fin 2 → Fin S16x2048.rank)
  bcast_S16x2048_S16x2048x1_0_1 : S16x2048.BroadcastsInDim S16x2048x1 (![0, 1] : Fin 2 → Fin S16x2048x1.rank)
  concatenates_S16x2048x1_S16x2048x1_S16x2048x2_d2 : Shape.Concatenates [S16x2048x1, S16x2048x1] S16x2048x2 2
  bcast_S_S16 : S_.BroadcastsInDim S16 (![] : Fin 0 → Fin S16.rank)
  shapeCasts_S512x256x256_S131072x256 : S512x256x256.ShapeCasts S131072x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S16x4096_S16x4096_0_0 : ∀ a, (![0, 0] : Fin 2 → Nat) a + S16x4096.size a ≤ S16x4096.size a
  h_S16x4096 : 0 < S16x4096.numel
  shapeCasts_S16x131072_S16x512x256 : S16x131072.ShapeCasts S16x512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  gather_S27x32000x256_S16x2048x2_S16x2048x256_2_01_n_n_01_2_11256_wf : GatherDims.WF S27x32000x256 S16x2048x2 S16x2048x256 [2] [0, 1] [] [0, 1] [] 2 ![1, 1, 256]
  gather_S27x256_S16x1_S16x256_1_0_n_n_0_1_1256_wf : GatherDims.WF S27x256 S16x1 S16x256 [1] [0] [] [0] [] 1 ![1, 256]
  dot_S16x256_S4096x256_S16x4096_1_1_0_0_n_n_wf : DotDims.WF S16x256 S4096x256 S16x4096 [1] [1] [0] [0] [] []
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S16x256.size a
  hwx0_0 : ∀ i : grid0.Coords, EltTy.bits .f32 = 32 ∨ (Rect.block (s := S16x256) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x131072.size a
  hwx0_2 : ∀ i : grid0.Coords, EltTy.bits .f32 = 32 ∨ (Rect.block (s := S16x131072) S16x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S16x2048x256.size a
  hwx1_0 : ∀ i : grid1.Coords, EltTy.bits .f32 = 32 ∨ (Rect.block (s := S16x2048x256) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S16x512x256.size a
  hwx1_1 : ∀ i : grid1.Coords, EltTy.bits .f32 = 32 ∨ (Rect.block (s := S16x512x256) S1x512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x512.size a ≤ S16x2048x512.size a
  hwx1_5 : ∀ i : grid1.Coords, EltTy.bits .f32 = 32 ∨ (Rect.block (s := S16x2048x512) S1x2048x512.size (cc1_transform_5 i) (hinb1_5 i)).WholeWords (EltTy.packing .f32)

variable [Facts₀]

def gather_S27x32000x256_S16x2048x2_S16x2048x256_2_01_n_n_01_2_11256 : GatherDims S27x32000x256 S16x2048x2 S16x2048x256 where
  offsetDims := [2]
  collapsedSliceDims := [0, 1]
  operandBatchingDims := []
  startIndicesBatchingDims := []
  startIndexMap := [0, 1]
  indexVectorDim := 2
  sliceSizes := ![1, 1, 256]
  wf := gather_S27x32000x256_S16x2048x2_S16x2048x256_2_01_n_n_01_2_11256_wf
def gather_S27x256_S16x1_S16x256_1_0_n_n_0_1_1256 : GatherDims S27x256 S16x1 S16x256 where
  offsetDims := [1]
  collapsedSliceDims := [0]
  operandBatchingDims := []
  startIndicesBatchingDims := []
  startIndexMap := [0]
  indexVectorDim := 1
  sliceSizes := ![1, 256]
  wf := gather_S27x256_S16x1_S16x256_1_0_n_n_0_1_1256_wf
def dot_S16x256_S4096x256_S16x4096_1_1_0_0_n_n : DotDims S16x256 S4096x256 S16x4096 where
  lhsContracting := [1]
  rhsContracting := [1]
  lhsNonContracting := [0]
  rhsNonContracting := [0]
  lhsBatch := []
  rhsBatch := []
  wf := dot_S16x256_S4096x256_S16x4096_1_1_0_0_n_n_wf
def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_v23) S16x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S16x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x2048x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x2048 : Shape := ⟨2, ![16, 2048]⟩
abbrev S16x1 : Shape := ⟨2, ![16, 1]⟩
abbrev S27x32000x256 : Shape := ⟨3, ![27, 32000, 256]⟩
abbrev S512x256x256 : Shape := ⟨3, ![512, 256, 256]⟩
abbrev S512 : Shape := ⟨1, ![512]⟩
abbrev S27x256 : Shape := ⟨2, ![27, 256]⟩
abbrev S16 : Shape := ⟨1, ![16]⟩
abbrev S_ : Shape := ⟨0, ![]⟩
abbrev S16x2048x1 : Shape := ⟨3, ![16, 2048, 1]⟩
abbrev S16x2048x2 : Shape := ⟨3, ![16, 2048, 2]⟩
abbrev S16x2048x256 : Shape := ⟨3, ![16, 2048, 256]⟩
abbrev S16x256 : Shape := ⟨2, ![16, 256]⟩
abbrev S16x512x256 : Shape := ⟨3, ![16, 512, 256]⟩
abbrev S16x2048x512 : Shape := ⟨3, ![16, 2048, 512]⟩
abbrev S1x1x512 : Shape := ⟨3, ![1, 1, 512]⟩

abbrev nBuf : Space → Nat
  | .hbm => 72
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16x1, .i32⟩
  | .hbm, ⟨2, _⟩ => ⟨S27x32000x256, .f32⟩
  | .hbm, ⟨3, _⟩ => ⟨S512x256x256, .f32⟩
  | .hbm, ⟨4, _⟩ => ⟨S512, .f32⟩
  | .hbm, ⟨5, _⟩ => ⟨S27x256, .f32⟩
  | .hbm, ⟨6, _⟩ => ⟨S512, .f32⟩
  | .hbm, ⟨7, _⟩ => ⟨S512, .f32⟩
  | .hbm, ⟨8, _⟩ => ⟨S16, .i32⟩
  | .hbm, ⟨9, _⟩ => ⟨S16x1, .i32⟩
  | .hbm, ⟨10, _⟩ => ⟨S_, .i32⟩
  | .hbm, ⟨11, _⟩ => ⟨S16x1, .i32⟩
  | .hbm, ⟨12, _⟩ => ⟨S16x1, .i1⟩
  | .hbm, ⟨13, _⟩ => ⟨S_, .i32⟩
  | .hbm, ⟨14, _⟩ => ⟨S16x1, .i32⟩
  | .hbm, ⟨15, _⟩ => ⟨S16x1, .i32⟩
  | .hbm, ⟨16, _⟩ => ⟨S16x1, .i32⟩
  | .hbm, ⟨17, _⟩ => ⟨S_, .i32⟩
  | .hbm, ⟨18, _⟩ => ⟨S16x2048, .i32⟩
  | .hbm, ⟨19, _⟩ => ⟨S16x2048, .i1⟩
  | .hbm, ⟨20, _⟩ => ⟨S_, .i32⟩
  | .hbm, ⟨21, _⟩ => ⟨S16x2048, .i32⟩
  | .hbm, ⟨22, _⟩ => ⟨S16x2048, .i32⟩
  | .hbm, ⟨23, _⟩ => ⟨S16x2048, .i32⟩
  | .hbm, ⟨24, _⟩ => ⟨S16x2048, .i32⟩
  | .hbm, ⟨25, _⟩ => ⟨S16x2048x1, .i32⟩
  | .hbm, ⟨26, _⟩ => ⟨S16x2048x1, .i32⟩
  | .hbm, ⟨27, _⟩ => ⟨S16x2048x2, .i32⟩
  | .hbm, ⟨28, _⟩ => ⟨S16x2048x256, .f32⟩
  | .hbm, ⟨29, _⟩ => ⟨S_, .i32⟩
  | .hbm, ⟨30, _⟩ => ⟨S16, .i32⟩
  | .hbm, ⟨31, _⟩ => ⟨S16, .i1⟩
  | .hbm, ⟨32, _⟩ => ⟨S_, .i32⟩
  | .hbm, ⟨33, _⟩ => ⟨S16, .i32⟩
  | .hbm, ⟨34, _⟩ => ⟨S16, .i32⟩
  | .hbm, ⟨35, _⟩ => ⟨S16, .i32⟩
  | .hbm, ⟨36, _⟩ => ⟨S16x1, .i32⟩
  | .hbm, ⟨37, _⟩ => ⟨S16x256, .f32⟩
  | .hbm, ⟨38, _⟩ => ⟨S16x512x256, .f32⟩
  | .hbm, ⟨39, _⟩ => ⟨S16x2048x512, .f32⟩
  | .hbm, ⟨40, _⟩ => ⟨S1x1x512, .f32⟩
  | .hbm, ⟨41, _⟩ => ⟨S16x2048x512, .f32⟩
  | .hbm, ⟨42, _⟩ => ⟨S16x2048x512, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x512, .f32⟩
  | .hbm, ⟨50, _⟩ => ⟨S16x2048x512, .f32⟩
  | .hbm, ⟨51, _⟩ => ⟨S16x2048x512, .f32⟩
  | .hbm, ⟨52, _⟩ => ⟨S_, .f32⟩
  | .hbm, ⟨53, _⟩ => ⟨S16x2048, .f32⟩
  | .hbm, ⟨54, _⟩ => ⟨S16x2048x1, .f32⟩
  | .hbm, ⟨55, _⟩ => ⟨S_, .f32⟩
  | .hbm, ⟨56, _⟩ => ⟨S16x2048x1, .f32⟩
  | .hbm, ⟨57, _⟩ => ⟨S16x2048x1, .f32⟩
  | .hbm, ⟨58, _⟩ => ⟨S16x2048x512, .f32⟩
  | .hbm, ⟨59, _⟩ => ⟨S16x2048x512, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1, .f32⟩
  | .hbm, ⟨64, _⟩ => ⟨S16x2048x512, .f32⟩
  | .hbm, ⟨65, _⟩ => ⟨S16x2048x512, .f32⟩
  | .hbm, ⟨66, _⟩ => ⟨S1x1x512, .f32⟩
  | .hbm, ⟨67, _⟩ => ⟨S16x2048x512, .f32⟩
  | .hbm, ⟨68, _⟩ => ⟨S16x2048x512, .f32⟩
  | .hbm, ⟨69, _⟩ => ⟨S1x1x512, .f32⟩
  | .hbm, ⟨70, _⟩ => ⟨S16x2048x512, .f32⟩
  | .hbm, ⟨71, _⟩ => ⟨S16x2048x512, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  shapeCasts_S16x1_S16 : S16x1.ShapeCasts S16
  bcast_S16_S16x1_0 : S16.BroadcastsInDim S16x1 (![0] : Fin 1 → Fin S16x1.rank)
  bcast_S_S16x1 : S_.BroadcastsInDim S16x1 (![] : Fin 0 → Fin S16x1.rank)
  bcast_S_S16x2048 : S_.BroadcastsInDim S16x2048 (![] : Fin 0 → Fin S16x2048.rank)
  bcast_S16x1_S16x2048_0_1 : S16x1.BroadcastsInDim S16x2048 (![0, 1] : Fin 2 → Fin S16x2048.rank)
  bcast_S16x2048_S16x2048x1_0_1 : S16x2048.BroadcastsInDim S16x2048x1 (![0, 1] : Fin 2 → Fin S16x2048x1.rank)
  concatenates_S16x2048x1_S16x2048x1_S16x2048x2_d2 : Shape.Concatenates [S16x2048x1, S16x2048x1] S16x2048x2 2
  bcast_S_S16 : S_.BroadcastsInDim S16 (![] : Fin 0 → Fin S16.rank)
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  reducesTo_S16x2048x512_S16x2048_d2 : S16x2048x512.ReducesTo [2] S16x2048
  h_S_ : 0 < S_.numel
  bcast_S_S16x2048x1 : S_.BroadcastsInDim S16x2048x1 (![] : Fin 0 → Fin S16x2048x1.rank)
  bcast_S16x2048x1_S16x2048x512_0_1_2 : S16x2048x1.BroadcastsInDim S16x2048x512 (![0, 1, 2] : Fin 3 → Fin S16x2048x512.rank)
  gather_S27x32000x256_S16x2048x2_S16x2048x256_2_01_n_n_01_2_11256_wf : GatherDims.WF S27x32000x256 S16x2048x2 S16x2048x256 [2] [0, 1] [] [0, 1] [] 2 ![1, 1, 256]
  gather_S27x256_S16x1_S16x256_1_0_n_n_0_1_1256_wf : GatherDims.WF S27x256 S16x1 S16x256 [1] [0] [] [0] [] 1 ![1, 256]
  dot_S16x256_S512x256x256_S16x512x256_1_2_0_01_n_n_wf : DotDims.WF S16x256 S512x256x256 S16x512x256 [1] [2] [0] [0, 1] [] []
  dot_S16x2048x256_S16x512x256_S16x2048x512_2_2_1_1_0_0_wf : DotDims.WF S16x2048x256 S16x512x256 S16x2048x512 [2] [2] [1] [1] [0] [0]

variable [Facts₀]

def gather_S27x32000x256_S16x2048x2_S16x2048x256_2_01_n_n_01_2_11256 : GatherDims S27x32000x256 S16x2048x2 S16x2048x256 where
  offsetDims := [2]
  collapsedSliceDims := [0, 1]
  operandBatchingDims := []
  startIndicesBatchingDims := []
  startIndexMap := [0, 1]
  indexVectorDim := 2
  sliceSizes := ![1, 1, 256]
  wf := gather_S27x32000x256_S16x2048x2_S16x2048x256_2_01_n_n_01_2_11256_wf
def gather_S27x256_S16x1_S16x256_1_0_n_n_0_1_1256 : GatherDims S27x256 S16x1 S16x256 where
  offsetDims := [1]
  collapsedSliceDims := [0]
  operandBatchingDims := []
  startIndicesBatchingDims := []
  startIndexMap := [0]
  indexVectorDim := 1
  sliceSizes := ![1, 256]
  wf := gather_S27x256_S16x1_S16x256_1_0_n_n_0_1_1256_wf
def dot_S16x256_S512x256x256_S16x512x256_1_2_0_01_n_n : DotDims S16x256 S512x256x256 S16x512x256 where
  lhsContracting := [1]
  rhsContracting := [2]
  lhsNonContracting := [0]
  rhsNonContracting := [0, 1]
  lhsBatch := []
  rhsBatch := []
  wf := dot_S16x256_S512x256x256_S16x512x256_1_2_0_01_n_n_wf
def dot_S16x2048x256_S16x512x256_S16x2048x512_2_2_1_1_0_0 : DotDims S16x2048x256 S16x512x256 S16x2048x512 where
  lhsContracting := [2]
  rhsContracting := [2]
  lhsNonContracting := [1]
  rhsNonContracting := [1]
  lhsBatch := [0]
  rhsBatch := [0]
  wf := dot_S16x2048x256_S16x512x256_S16x2048x512_2_2_1_1_0_0_wf

class Facts : Prop extends Facts₀ where

variable [Facts]
-- ==== Proof.LibColumnReads.lean ====
/-
  Column and row reads of small layout operations, over arbitrary extents.

  A column `[a, 1]` broadcast along the second axis reads, at `(p, c)`, the column's entry `p`; a vector of length
  `a` reshaped to a column `[a, 1]` reads, at `(p, 0)`, the vector's entry `p`; a vector made a column by the host's
  broadcast along axis 0 reads the same; and a `[a, 1]` column broadcast by the host to `[a, b]` reads the column's
  entry of the same row.
-/
import Idealize.ShloMosaic.Lib.Pipeline.Value
import Idealize.ShloMosaic.Lib.ValueIdx
import Idealize.ShloMosaic.Lib.ValueLayout

noncomputable section

namespace Cert.Lib.ColumnReads

open Idealize.ShloMosaic Idealize.ShloMosaic.ValueIdx

variable {α : Type}

/-- A `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along both axes reads, at `(p, c)`, the column at row `p`. -/
theorem col_broadcastInDim_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun d => by
    match d with
    | ⟨0, _⟩ =>
      show p.val = if a = 1 then 0 else p.val
      split
      · have := p.isLt; omega
      · rfl
    | ⟨1, _⟩ => rfl

/-- A vector made a `[a, 1]` column by the host's broadcast along axis 0 reads, at `(p, 0)`, the vector at `p`. -/
theorem vec_as_col_apply {a : ℕ} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v _ _ fun d => by
    match d with
    | ⟨0, _⟩ =>
      show p.val = if a = 1 then 0 else p.val
      split
      · have := p.isLt; omega
      · rfl

/-- A vector reshaped to a `[a, 1]` column reads, at `(p, 0)`, the vector at `p`. -/
theorem reshape_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ (ix1 p) (by
    rw [Shape.rowMajor_val_one, Shape.rowMajor_val_two]
    show p.val = p.val * 1 + 0
    omega)

end Cert.Lib.ColumnReads

end
-- ==== Proof.LibLayerNormRows.lean ====
/-
  Layer normalisation of the rows of an `[a, b]` array, on the extended reals.

  For a row `x` of `b` entries, a divisor `c` and an offset `ε`, write `μ = (Σ x) / c` for the row's mean and
  `σ² = (Σ (x − μ)²) / c` for its variance. The normalised, rescaled and shifted entry `q` of the row is
      (x q − μ) · rsqrt (σ² + ε) · g q + β q.
  No law of arithmetic is used here, so nothing has to be finite: the statement is only that the matrix unit's spelling
  of the computation — a lane sum, its result reshaped to a column, a quotient by a splat constant, the column broadcast
  back over the lanes, a square, a second lane sum, a reciprocal square root, and the scale and shift vectors reshaped to
  rows and broadcast over the sublanes — is, entry by entry, exactly this term of the row.
-/
import Idealize.ShloMosaic.PureOps.Ideal.Laws
import Idealize.ShloMosaic.Lib.Pipeline.Value
import Idealize.ShloMosaic.Lib.ValueIdx
import Idealize.ShloMosaic.Lib.ValueLayout
import proofs.«111065_j35330400977464_1_alg».proof.Proof.LibColumnReads

noncomputable section

namespace Cert.Lib.LayerNormRows

open Idealize.ShloMosaic Idealize.ShloMosaic.ValueIdx

/-- The mean of a row: its sum over the divisor `c`. -/
def mean {n : ℕ} (c : EReal) (x : Fin n → EReal) : EReal := Ideal.div (∑ k, x k) c

/-- The variance of a row: the sum of the squared deviations from the mean, over the divisor `c`. -/
def var {n : ℕ} (c : EReal) (x : Fin n → EReal) : EReal :=
  Ideal.div (∑ k, (x k - mean c x) * (x k - mean c x)) c

/-- Entry `q` of the normalised row, rescaled by `g` and shifted by `β`. -/
def lnRow {n : ℕ} (c ε : EReal) (x g β : Fin n → EReal) (q : Fin n) : EReal :=
  (x q - mean c x) * Ideal.rsqrt (var c x + ε) * g q + β q

variable {a b : ℕ}

/-- The matrix unit's spelling of the layer normalisation of every row of `v`: the divisor and the offset are splat
    words `cw` and `εw`, the scale `g` and the shift `β` are vectors along the lanes. -/
def mxuLN (cw εw : BitVec 32) (v : FVec Ideal ⟨2, ![a, b]⟩ .f32) (g β : FVec Ideal ⟨1, ![b]⟩ .f32)
    (hr : (⟨2, ![a, b]⟩ : Shape).Reduces [1] ⟨1, ![a]⟩) (hφ : FKind.Formats .f32)
    (hacc : (0x00000000#32 : BitVec 32) = FKind.add.neutral .f32 hφ)
    (hcol : (⟨1, ![a]⟩ : Shape).ShapeCasts ⟨2, ![a, 1]⟩) (hbc : (⟨2, ![a, 1]⟩ : Shape).Broadcasts ⟨2, ![a, b]⟩)
    (hrow : (⟨1, ![b]⟩ : Shape).ShapeCasts ⟨2, ![1, b]⟩) (hbr : (⟨2, ![1, b]⟩ : Shape).Broadcasts ⟨2, ![a, b]⟩) :
    FVec Ideal ⟨2, ![a, b]⟩ .f32 :=
  let rowSum : FVec Ideal ⟨1, ![a]⟩ .f32 := multiReduction .add [1] ⟨1, ![a]⟩ v 0x00000000#32 hr hφ hacc
  let mu : FVec Ideal ⟨2, ![a, 1]⟩ .f32 :=
    divf (shapeCast ⟨2, ![a, 1]⟩ rowSum hcol) (broadcast ⟨2, ![a, 1]⟩ (Scalar.ofBits .f32 cw))
  let dev : FVec Ideal ⟨2, ![a, b]⟩ .f32 := subf v (broadcastTo ⟨2, ![a, b]⟩ mu hbc)
  let sqSum : FVec Ideal ⟨1, ![a]⟩ .f32 := multiReduction .add [1] ⟨1, ![a]⟩ (mulf dev dev) 0x00000000#32 hr hφ hacc
  let sigma2 : FVec Ideal ⟨2, ![a, 1]⟩ .f32 :=
    divf (shapeCast ⟨2, ![a, 1]⟩ sqSum hcol) (broadcast ⟨2, ![a, 1]⟩ (Scalar.ofBits .f32 cw))
  let inv : FVec Ideal ⟨2, ![a, 1]⟩ .f32 := rsqrt (addf sigma2 (broadcast ⟨2, ![a, 1]⟩ (Scalar.ofBits .f32 εw)))
  let normed : FVec Ideal ⟨2, ![a, b]⟩ .f32 := mulf dev (broadcastTo ⟨2, ![a, b]⟩ inv hbc)
  addf (mulf normed (broadcastTo ⟨2, ![a, b]⟩ (shapeCast ⟨2, ![1, b]⟩ g hrow) hbr))
    (broadcastTo ⟨2, ![a, b]⟩ (shapeCast ⟨2, ![1, b]⟩ β hrow) hbr)

/-- A lane sum into a zero accumulator reads, at row `p`, the sum of the row's entries. -/
theorem lane_sum_apply (w : FVec Ideal ⟨2, ![a, b]⟩ .f32)
    (hr : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ w 0x00000000#32 hr hφ hacc (ix1 p) = ∑ k : Fin b, w (ix2 p k) :=
  (Ideal.multiReduction_add_single w _ hr hφ hacc (ix1 p)).trans
    (Finset.sum_congr rfl fun k _ => congrArg w (funext fun d => Fin.ext (by
      match d with
      | ⟨0, _⟩ => rfl
      | ⟨1, _⟩ => rfl)))

/-- The matrix unit's spelling, read at entry `(p, q)`, is the layer normalisation of row `p` at `q`. -/
theorem mxuLN_apply (cw εw : BitVec 32) (v : FVec Ideal ⟨2, ![a, b]⟩ .f32) (g β : FVec Ideal ⟨1, ![b]⟩ .f32)
    (hr : (⟨2, ![a, b]⟩ : Shape).Reduces [1] ⟨1, ![a]⟩) (hφ : FKind.Formats .f32)
    (hacc : (0x00000000#32 : BitVec 32) = FKind.add.neutral .f32 hφ)
    (hcol : (⟨1, ![a]⟩ : Shape).ShapeCasts ⟨2, ![a, 1]⟩) (hbc : (⟨2, ![a, 1]⟩ : Shape).Broadcasts ⟨2, ![a, b]⟩)
    (hrow : (⟨1, ![b]⟩ : Shape).ShapeCasts ⟨2, ![1, b]⟩) (hbr : (⟨2, ![1, b]⟩ : Shape).Broadcasts ⟨2, ![a, b]⟩)
    (p : Fin a) (q : Fin b) :
    mxuLN cw εw v g β hr hφ hacc hcol hbc hrow hbr (ix2 p q)
      = lnRow (Ideal.ofBits .f32 cw) (Ideal.ofBits .f32 εw) (fun k => v (ix2 p k)) (fun k => g (ix1 k))
          (fun k => β (ix1 k)) q := by
  have lane := fun (w : FVec Ideal ⟨2, ![a, b]⟩ .f32) (p : Fin a) => lane_sum_apply w hr hφ hacc p
  have col : ∀ (u : FVec Ideal ⟨1, ![a]⟩ .f32) (p : Fin a),
      shapeCast ⟨2, ![a, 1]⟩ u hcol (ix2 p (0 : Fin 1)) = u (ix1 p) :=
    fun u p => Cert.Lib.ColumnReads.reshape_col_apply u hcol p
  have bc : ∀ (u : FVec Ideal ⟨2, ![a, 1]⟩ .f32) (p : Fin a) (q : Fin b),
      broadcastTo ⟨2, ![a, b]⟩ u hbc (ix2 p q) = u (ix2 p (0 : Fin 1)) :=
    fun u p q => Cert.Lib.ColumnReads.broadcastTo_a1_ab_apply u hbc p q
  have row : ∀ (u : FVec Ideal ⟨1, ![b]⟩ .f32) (p : Fin a) (q : Fin b),
      broadcastTo ⟨2, ![a, b]⟩ (shapeCast ⟨2, ![1, b]⟩ u hrow) hbr (ix2 p q) = u (ix1 q) :=
    fun u p q => (broadcastTo_1b_ab_apply _ hbr p q).trans (shapeCast_a_1a_apply u hrow 0 q)
  have rs : ∀ (u : FVec Ideal ⟨2, ![a, 1]⟩ .f32) (i : (⟨2, ![a, 1]⟩ : Shape).Idx), rsqrt u i = Ideal.rsqrt (u i) :=
    fun _ _ => rfl
  have sc : ∀ w : BitVec 32, Scalar.ofBits (F := Ideal) .f32 w = Ideal.ofBits .f32 w := fun _ => rfl
  unfold mxuLN lnRow var mean
  simp only [addf_apply, mulf_apply, subf_apply, divf_apply, broadcast_apply, rs, row, bc, col, lane, sc]

end Cert.Lib.LayerNormRows

end
-- ==== Proof.Spec.lean ====
/-
  The function both programs compute, index by index, on the extended reals.

  From a token embedding `tok[b, s, e]`, a king embedding `kemb[b, j]`, the bilinear weight `wb[q, e, j]`, a bias
  `bb[q]`, and the scale and shift `g[q]`, `β[q]`:
      wk[b, q, e]  = Σ_j kemb[b, j] · wb[q, e, j]                 (the weight contracted with the king embedding first)
      pre[b, s, q] = (Σ_e tok[b, s, e] · wk[b, q, e]) + bb[q]      (the bilinear form and its bias)
      out[b, s, q] = the layer normalisation of the row pre[b, s, ·] at q, rescaled by g and shifted by β.
  Nothing here evaluates a float word: the divisor and the offset of the normalisation are parameters.
-/
import proofs.«111065_j35330400977464_1_alg».proof.Proof.LibLayerNormRows

noncomputable section

namespace Cert.BilinearLN

open Idealize.ShloMosaic Idealize.ShloMosaic.ValueIdx Cert.Lib.LayerNormRows

variable {B S E J M : ℕ}

/-- The weight of sample `b`: the bilinear weight contracted with the sample's king embedding. -/
def wk (kemb : FVec Ideal ⟨2, ![B, J]⟩ .f32) (wb : FVec Ideal ⟨3, ![M, E, J]⟩ .f32) (b : Fin B) (q : Fin M) (e : Fin E) :
    EReal :=
  ∑ j : Fin J, kemb (ix2 b j) * wb (ix3 q e j)

/-- The bilinear form of token `(b, s)` at output feature `q`, with its bias. -/
def pre (tok : FVec Ideal ⟨3, ![B, S, E]⟩ .f32) (kemb : FVec Ideal ⟨2, ![B, J]⟩ .f32)
    (wb : FVec Ideal ⟨3, ![M, E, J]⟩ .f32) (bb : FVec Ideal ⟨1, ![M]⟩ .f32) (b : Fin B) (s : Fin S) (q : Fin M) : EReal :=
  (∑ e : Fin E, tok (ix3 b s e) * wk kemb wb b q e) + bb (ix1 q)

/-- The result at `(b, s, q)`: the row `pre[b, s, ·]` layer-normalised, at `q`. -/
def outAt (c ε : EReal) (tok : FVec Ideal ⟨3, ![B, S, E]⟩ .f32) (kemb : FVec Ideal ⟨2, ![B, J]⟩ .f32)
    (wb : FVec Ideal ⟨3, ![M, E, J]⟩ .f32) (bb g β : FVec Ideal ⟨1, ![M]⟩ .f32) (b : Fin B) (s : Fin S) (q : Fin M) :
    EReal :=
  lnRow c ε (fun q' => pre tok kemb wb bb b s q') (fun q' => g (ix1 q')) (fun q' => β (ix1 q')) q

/-- The whole result array. -/
def out (c ε : EReal) (tok : FVec Ideal ⟨3, ![B, S, E]⟩ .f32) (kemb : FVec Ideal ⟨2, ![B, J]⟩ .f32)
    (wb : FVec Ideal ⟨3, ![M, E, J]⟩ .f32) (bb g β : FVec Ideal ⟨1, ![M]⟩ .f32) : FVec Ideal ⟨3, ![B, S, M]⟩ .f32 :=
  fun i => outAt c ε tok kemb wb bb g β (i 0) (i 1) (i 2)

theorem out_apply (c ε : EReal) (tok : FVec Ideal ⟨3, ![B, S, E]⟩ .f32) (kemb : FVec Ideal ⟨2, ![B, J]⟩ .f32)
    (wb : FVec Ideal ⟨3, ![M, E, J]⟩ .f32) (bb g β : FVec Ideal ⟨1, ![M]⟩ .f32) (b : Fin B) (s : Fin S) (q : Fin M) :
    out c ε tok kemb wb bb g β (ix3 b s q) = outAt c ε tok kemb wb bb g β b s q := rfl

/-- The divisor of the normalisation: the f32 word of 512. -/
abbrev c512 : EReal := Ideal.ofBits .f32 0x44000000#32
/-- The offset under the reciprocal square root: the f32 word nearest 1e-5. -/
abbrev eps : EReal := Ideal.ofBits .f32 0x3727C5AC#32

end Cert.BilinearLN

end
-- ==== Proof.RefValue.lean ====
/-
  The reference computes `Cert.BilinearLN.out` of the two gathered embeddings.

  Its two `dot_general`s are the contraction over `j` and then, batched over the sample, over `e`; the bias is two
  broadcasts; each mean is a sum over the last axis from a zero initial value, kept as a unit axis, over the constant 512;
  the square is a product of the deviation with itself. Read one operation at a time at an index, the result is the layer
  normalisation of the row `pre[b, s, ·]`, term for term. The two gathers are never opened: they are the arrays `tok` and
  `kemb` the function is applied to.
-/
import proofs.«111065_j35330400977464_1_alg».proof.Proof.Gen.ReferenceIdeal.Read
import proofs.«111065_j35330400977464_1_alg».proof.Proof.Spec

noncomputable section

namespace Cert.ReferenceIdeal.RefValue

open Cert.ReferenceIdeal Cert.ReferenceIdeal.Read Idealize.ShloMosaic Idealize.ShloMosaic.ValueIdx
open Cert.BilinearLN Cert.Lib.LayerNormRows

variable (x0 : (⟨S16x2048, .i32⟩ : BufTy).Contents (Elt Ideal)) (x1 : (⟨S16x1, .i32⟩ : BufTy).Contents (Elt Ideal))
  (x2 : (⟨S27x32000x256, .f32⟩ : BufTy).Contents (Elt Ideal)) (x3 : (⟨S512x256x256, .f32⟩ : BufTy).Contents (Elt Ideal))
  (x4 : (⟨S512, .f32⟩ : BufTy).Contents (Elt Ideal)) (x5 : (⟨S27x256, .f32⟩ : BufTy).Contents (Elt Ideal))
  (x6 x7 : (⟨S512, .f32⟩ : BufTy).Contents (Elt Ideal))

/-! ## The composed index maps, at coordinates -/

theorem l25 (b : Fin 16) (s : Fin 2048) (q : Fin 512) (e : Fin 256) : lidx_main_v25 (ix3 b s q) e = ix3 b s e :=
  funext fun a => Fin.ext (by match a with | ⟨0, _⟩ => rfl | ⟨1, _⟩ => rfl | ⟨2, _⟩ => rfl)
theorem r25 (b : Fin 16) (s : Fin 2048) (q : Fin 512) (e : Fin 256) : ridx_main_v25 (ix3 b s q) e = ix3 b q e :=
  funext fun a => Fin.ext (by match a with | ⟨0, _⟩ => rfl | ⟨1, _⟩ => rfl | ⟨2, _⟩ => rfl)
theorem l24 (b : Fin 16) (q : Fin 512) (e j : Fin 256) : lidx_main_v24 (ix3 b q e) j = ix2 b j :=
  funext fun a => Fin.ext (by match a with | ⟨0, _⟩ => rfl | ⟨1, _⟩ => rfl)
theorem r24 (b : Fin 16) (q : Fin 512) (e j : Fin 256) : ridx_main_v24 (ix3 b q e) j = ix3 q e j :=
  funext fun a => Fin.ext (by match a with | ⟨0, _⟩ => rfl | ⟨1, _⟩ => rfl | ⟨2, _⟩ => rfl)
theorem i27 (b : Fin 16) (s : Fin 2048) (q : Fin 512) : idx_main_v26 (idx_main_v27 (ix3 b s q)) = ix1 q :=
  funext fun a => Fin.ext (by match a with | ⟨0, _⟩ => rfl)
theorem i48 (b : Fin 16) (s : Fin 2048) (q : Fin 512) : idx_main_v47 (idx_main_v48 (ix3 b s q)) = ix1 q :=
  funext fun a => Fin.ext (by match a with | ⟨0, _⟩ => rfl)
theorem i51 (b : Fin 16) (s : Fin 2048) (q : Fin 512) : idx_main_v50 (idx_main_v51 (ix3 b s q)) = ix1 q :=
  funext fun a => Fin.ext (by match a with | ⟨0, _⟩ => rfl)
theorem i29 (b : Fin 16) (s : Fin 2048) (k : Fin 512) : idx_main_v29 (ix2 b s) k = ix3 b s k :=
  funext fun a => Fin.ext (by match a with | ⟨0, _⟩ => rfl | ⟨1, _⟩ => rfl | ⟨2, _⟩ => rfl)
theorem i36 (b : Fin 16) (s : Fin 2048) (k : Fin 512) : idx_main_v36 (ix2 b s) k = ix3 b s k :=
  funext fun a => Fin.ext (by match a with | ⟨0, _⟩ => rfl | ⟨1, _⟩ => rfl | ⟨2, _⟩ => rfl)
theorem i30 (b : Fin 16) (s : Fin 2048) (u : Fin 1) : idx_main_v30 (ix3 b s u) = ix2 b s :=
  funext fun a => Fin.ext (by match a with | ⟨0, _⟩ => rfl | ⟨1, _⟩ => rfl)
theorem i37 (b : Fin 16) (s : Fin 2048) (u : Fin 1) : idx_main_v37 (ix3 b s u) = ix2 b s :=
  funext fun a => Fin.ext (by match a with | ⟨0, _⟩ => rfl | ⟨1, _⟩ => rfl)
theorem i33 (b : Fin 16) (s : Fin 2048) (q : Fin 512) : idx_main_v33 (ix3 b s q) = ix3 b s (0 : Fin 1) :=
  funext fun a => Fin.ext (by match a with | ⟨0, _⟩ => rfl | ⟨1, _⟩ => rfl | ⟨2, _⟩ => rfl)
theorem i40 (b : Fin 16) (s : Fin 2048) (q : Fin 512) : idx_main_v40 (ix3 b s q) = ix3 b s (0 : Fin 1) :=
  funext fun a => Fin.ext (by match a with | ⟨0, _⟩ => rfl | ⟨1, _⟩ => rfl | ⟨2, _⟩ => rfl)
theorem i45 (b : Fin 16) (s : Fin 2048) (q : Fin 512) : idx_main_v45 (ix3 b s q) = ix3 b s (0 : Fin 1) :=
  funext fun a => Fin.ext (by match a with | ⟨0, _⟩ => rfl | ⟨1, _⟩ => rfl | ⟨2, _⟩ => rfl)

/-! ## The stages, at coordinates -/

local notation "TOK" => val_main_v16 (F := Ideal) x0 x1 x2
local notation "KEMB" => val_main_v23 (F := Ideal) x1 x5

/-- The biased bilinear form. -/
theorem pre_at (b : Fin 16) (s : Fin 2048) (q : Fin 512) :
    val_main_v28 (F := Ideal) x0 x1 x2 x3 x4 x5 (ix3 b s q) = pre TOK KEMB x3 x4 b s q := by
  rw [val_main_v28_apply, val_main_v25_apply, val_main_v27_apply, val_main_v26_apply, i27]
  simp only [val_main_v24_apply, l25, r25, l24, r24, Ideal.addf_def]
  rfl

/-- The row's mean, kept as a unit axis. -/
theorem mean_at (b : Fin 16) (s : Fin 2048) (u : Fin 1) :
    val_main_v32 (F := Ideal) x0 x1 x2 x3 x4 x5 (ix3 b s u)
      = mean c512 (fun q => pre TOK KEMB x3 x4 b s q) := by
  rw [val_main_v32_apply, val_main_v30_apply, i30, val_main_v29_apply, val_main_v31_apply, val_main_cst_5_apply,
    val_main_cst_apply]
  simp only [i29, pre_at, Ideal.hostDivf_def, Ideal.ofBits_def, Ideal.ofBits_zero_f32, zero_add]
  rfl

/-- The deviation from the mean (the program computes it twice: once to square, once to normalise). -/
theorem dev_at (b : Fin 16) (s : Fin 2048) (q : Fin 512) :
    val_main_v34 (F := Ideal) x0 x1 x2 x3 x4 x5 (ix3 b s q)
      = pre TOK KEMB x3 x4 b s q - mean c512 (fun q' => pre TOK KEMB x3 x4 b s q') := by
  rw [val_main_v34_apply, val_main_v33_apply, i33, pre_at, mean_at]
  rfl
theorem dev_at' (b : Fin 16) (s : Fin 2048) (q : Fin 512) :
    val_main_v41 (F := Ideal) x0 x1 x2 x3 x4 x5 (ix3 b s q)
      = pre TOK KEMB x3 x4 b s q - mean c512 (fun q' => pre TOK KEMB x3 x4 b s q') := by
  rw [val_main_v41_apply, val_main_v40_apply, i40, pre_at, mean_at]
  rfl

/-- The row's variance, kept as a unit axis. -/
theorem var_at (b : Fin 16) (s : Fin 2048) (u : Fin 1) :
    val_main_v39 (F := Ideal) x0 x1 x2 x3 x4 x5 (ix3 b s u)
      = var c512 (fun q => pre TOK KEMB x3 x4 b s q) := by
  rw [val_main_v39_apply, val_main_v37_apply, i37, val_main_v36_apply, val_main_v38_apply, val_main_cst_7_apply,
    val_main_cst_6_apply]
  simp only [i36, val_main_v35_apply, dev_at, Ideal.hostDivf_def, Ideal.mulf_def, Ideal.ofBits_def, Ideal.ofBits_zero_f32,
    zero_add]
  rfl

/-- THE REFERENCE'S RESULT is the layer-normalised bilinear form of the gathered embeddings. -/
theorem result_eq :
    val_main_v52 (F := Ideal) x0 x1 x2 x3 x4 x5 x6 x7 = out c512 eps TOK KEMB x3 x4 x6 x7 := by
  funext i
  obtain ⟨b, s, q, rfl⟩ : ∃ (b : Fin 16) (s : Fin 2048) (q : Fin 512), i = ix3 b s q := ⟨i 0, i 1, i 2, eq_ix3 i⟩
  rw [out_apply, val_main_v52_apply, val_main_v51_apply, val_main_v50_apply, i51, val_main_v49_apply, val_main_v48_apply,
    val_main_v47_apply, i48, val_main_v46_apply, dev_at', val_main_v45_apply, i45, val_main_v44_apply, val_main_v43_apply,
    var_at, val_main_v42_apply, val_main_cst_8_apply]
  rfl

end Cert.ReferenceIdeal.RefValue

end
-- ==== Proof.KernelRun.lean ====
/-
  The idealized kernel's run with its result named.

  @main is four segments: the host operations that gather the two embeddings and flatten the weight, the first
  pallas_call, the reshape of its result, the second pallas_call. The generated frame data give every buffer's contents at
  each segment boundary as a fold from the launch memory; at the last boundary the contents are `Gen.W4`. Every weakly
  fair execution terminates without a fault in a state whose unscoped buffers hold `Gen.W4`; read at the result buffer
  this names the result, and read at an argument it is the launch contents.
-/
import proofs.«111065_j35330400977464_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibDotNT.lean ====
/-
  A matrix product against a transposed right operand, read at an entry.

  For the dimension numbers of an `M × K` by `N × K` product (the columns of both operands contracted, no batch axis)
  the contraction index is one coordinate `k < K`, the left operand is read at `(row, k)` and the right at
  `(column, k)`. So on the extended reals both the matrix unit's product into a zero accumulator and the host's
  `dot_general` are, at output entry `(r, c)`, the sum over `k` of `l (r, k) * r (c, k)`: the entry of `l · rᵀ`.
-/
import Idealize.ShloMosaic.PureOps.Ideal.Laws
import Idealize.ShloMosaic.Lib.ValueIdx

noncomputable section

namespace Cert.Lib.DotNT

open Idealize.ShloMosaic Idealize.ShloMosaic.ValueIdx

variable (M K N : ℕ)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The contraction sum of a product against a transposed right operand, over the contracted coordinate. -/
theorem sum_nt {α : Type*} [AddCommMonoid α] (f : (⟨2, ![M, K]⟩ : Shape).Idx → (⟨2, ![N, K]⟩ : Shape).Idx → α)
    (i : (⟨2, ![M, N]⟩ : Shape).Idx) :
    ∑ q : (DotDims.transposedRhs M K N).contr.Idx,
        f ((DotDims.transposedRhs M K N).lhsIdx i q) ((DotDims.transposedRhs M K N).rhsIdx i q)
      = ∑ k : Fin K, f (ix2 (i 0) k) (ix2 (i 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact lhs0 M K N _ _
      | ⟨1, _⟩ => exact ((DotDims.transposedRhs M K N).lhsIdx_val_of_single (cl := 1) rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact rhs0 M K N _ _
      | ⟨1, _⟩ => exact ((DotDims.transposedRhs M K N).rhsIdx_val_of_single (cr := 1) rfl i _).trans hk)
  rw [el, er]
  rfl

/-- The matrix unit's product into a zero accumulator, at an entry. -/
theorem matmul_zero_apply {φ₁ φ₂ : FTy} (prec : Option ContractPrecision)
    (l : FVec Ideal ⟨2, ![M, K]⟩ φ₁) (r : FVec Ideal ⟨2, ![N, K]⟩ φ₂) (i : (⟨2, ![M, N]⟩ : Shape).Idx) :
    FloatOps.matmul (DotDims.transposedRhs M K N) prec l r (constant ⟨2, ![M, N]⟩ .f32 0x00000000#32) i
      = ∑ k : Fin K, l (ix2 (i 0) k) * r (ix2 (i 1) k) := by
  rw [Ideal.matmul_constant_zero_apply]
  exact sum_nt M K N (fun a b => l a * r b) i

/-- The host's `dot_general`, at an entry. -/
theorem dotGeneral_apply {φ₁ φ₂ : FTy} (prec : Option ContractPrecision) (sched : HostSchedule)
    (l : FVec Ideal ⟨2, ![M, K]⟩ φ₁) (r : FVec Ideal ⟨2, ![N, K]⟩ φ₂) (i : (⟨2, ![M, N]⟩ : Shape).Idx) :
    FloatOps.dotGeneral (DotDims.transposedRhs M K N) prec sched l r i
      = ∑ k : Fin K, l (ix2 (i 0) k) * r (ix2 (i 1) k) := by
  rw [Ideal.dotGeneral_apply]
  exact sum_nt M K N (fun a b => l a * r b) i

end Cert.Lib.DotNT

end
-- ==== Proof.Bodies.lean ====
/-
  What each kernel body stores, entry by entry, as a function of the blocks it loads.

  The first body multiplies the `16 × 256` king-embedding block by the transpose of a `4096 × 256` block of the
  flattened weight: entry `(b, r)` is `Σ_j x0 (b, j) · x1 (r, j)`. The second multiplies one sample's `2048 × 256`
  token block by the transpose of the sample's `512 × 256` weight, adds the bias along the lanes, and layer-normalises
  every row. Changes of float format are the identity on the extended reals, and the matrix unit's product into a zero
  accumulator is the plain sum of products.
-/
import proofs.«111065_j35330400977464_1_alg».proof.Proof.Gen.KernelIdeal.Skeleton
import proofs.«111065_j35330400977464_1_alg».proof.Proof.LibDotNT
import proofs.«111065_j35330400977464_1_alg».proof.Proof.Spec

noncomputable section

namespace Cert.KernelIdeal.Bodies

open Cert.KernelIdeal Cert.KernelIdeal.Gen Idealize.ShloMosaic Idealize.ShloMosaic.ValueIdx
open Cert.BilinearLN Cert.Lib.LayerNormRows

/-! ## The first body: the weight contracted with the king embedding -/

/-- Entry `(b, r)` of the stored block. -/
theorem pay0_apply (x0 : Vec Ideal S16x256 .f32) (x1 : Vec Ideal S4096x256 .f32) (b : Fin 16) (r : Fin 4096) :
    k0_pay1 (F := Ideal) x0 x1 (ix2 b r) = ∑ j : Fin 256, x0 (ix2 b j) * x1 (ix2 r j) := by
  have e : k0_pay1 (F := Ideal) x0 x1
      = FloatOps.matmul (DotDims.transposedRhs 16 256 4096) none (φ₁ := .bf16) (φ₂ := .bf16) x0 x1
          (constant ⟨2, ![16, 4096]⟩ .f32 0x00000000#32) := by
    unfold k0_pay1
    simp only [shapeCast_self]
    rfl
  rw [e]
  exact Cert.Lib.DotNT.matmul_zero_apply 16 256 4096 none x0 x1 (ix2 b r)

/-! ## The second body: the bilinear form, its bias, and the layer normalisation of each row -/

/-- The biased product, before normalisation, as a `2048 × 512` array. -/
def preV (x0 : Vec Ideal S1x2048x256 .f32) (x3 : Vec Ideal S1x512x256 .f32) (x7 : Vec Ideal S512 .f32) :
    FVec Ideal S2048x512 .f32 :=
  addf
    (matmul dot_S2048x256_S512x256_S2048x512_1_1_0_0_n_n none
      (truncf .bf16 (shapeCast S2048x256 x0 shapeCasts_S1x2048x256_S2048x256) bitsLt_bf16_f32)
      (truncf .bf16 (shapeCast S512x256 x3 shapeCasts_S1x512x256_S512x256) bitsLt_bf16_f32)
      (constant S2048x512 .f32 0x00000000#32))
    (broadcastTo S2048x512 (shapeCast S1x512 x7 shapeCasts_S512_S1x512) broadcasts_S1x512_S2048x512)

/-- Entry `(s, q)` of the biased product. -/
theorem preV_apply (x0 : Vec Ideal S1x2048x256 .f32) (x3 : Vec Ideal S1x512x256 .f32) (x7 : Vec Ideal S512 .f32)
    (s : Fin 2048) (q : Fin 512) :
    preV x0 x3 x7 (ix2 s q)
      = (∑ e : Fin 256, x0 (ix3 (0 : Fin 1) s e) * x3 (ix3 (0 : Fin 1) q e)) + x7 (ix1 q) := by
  unfold preV
  rw [addf_apply]
  refine congrArg₂ (· + ·) ?_ ?_
  · refine (Cert.Lib.DotNT.matmul_zero_apply 2048 256 512 none
      (φ₁ := .bf16) (φ₂ := .bf16) (shapeCast S2048x256 x0 shapeCasts_S1x2048x256_S2048x256)
      (shapeCast S512x256 x3 shapeCasts_S1x512x256_S512x256) (ix2 s q)).trans (Finset.sum_congr rfl fun e _ => ?_)
    exact congrArg₂ (· * ·) (shapeCast_1ab_ab_apply x0 shapeCasts_S1x2048x256_S2048x256 s e)
      (shapeCast_1ab_ab_apply x3 shapeCasts_S1x512x256_S512x256 q e)
  · exact (broadcastTo_1b_ab_apply _ broadcasts_S1x512_S2048x512 s q).trans
      (shapeCast_a_1a_apply x7 shapeCasts_S512_S1x512 0 q)

/-- The stored block is the layer normalisation of the biased product's rows, with a leading unit axis. -/
theorem pay1_eq (x0 : Vec Ideal S1x2048x256 .f32) (x3 : Vec Ideal S1x512x256 .f32) (x7 x27 x31 : Vec Ideal S512 .f32) :
    k1_pay1 (F := Ideal) x0 x3 x7 x27 x31
      = shapeCast S1x2048x512
          (mxuLN 0x44000000#32 0x3727C5AC#32 (preV x0 x3 x7) x27 x31 reduces_S2048x512_S2048 (.inl rfl) rfl
            shapeCasts_S2048_S2048x1 broadcasts_S2048x1_S2048x512 shapeCasts_S512_S1x512 broadcasts_S1x512_S2048x512)
          shapeCasts_S2048x512_S1x2048x512 := rfl

/-- Entry `(0, s, q)` of the stored block: row `s` of the biased product, layer-normalised, at `q`. -/
theorem pay1_apply (x0 : Vec Ideal S1x2048x256 .f32) (x3 : Vec Ideal S1x512x256 .f32) (x7 x27 x31 : Vec Ideal S512 .f32)
    (u : Fin 1) (s : Fin 2048) (q : Fin 512) :
    k1_pay1 (F := Ideal) x0 x3 x7 x27 x31 (ix3 u s q)
      = lnRow c512 eps
          (fun q' => (∑ e : Fin 256, x0 (ix3 (0 : Fin 1) s e) * x3 (ix3 (0 : Fin 1) q' e)) + x7 (ix1 q'))
          (fun q' => x27 (ix1 q')) (fun q' => x31 (ix1 q')) q := by
  rw [pay1_eq]
  refine (shapeCast_ab_1ab_apply _ shapeCasts_S2048x512_S1x2048x512 u s q).trans ?_
  refine (mxuLN_apply 0x44000000#32 0x3727C5AC#32 (preV x0 x3 x7) x27 x31 reduces_S2048x512_S2048 (.inl rfl) rfl
    shapeCasts_S2048_S2048x1 broadcasts_S2048x1_S2048x512 shapeCasts_S512_S1x512 broadcasts_S1x512_S2048x512 s q).trans ?_
  simp only [preV_apply]

end Cert.KernelIdeal.Bodies

end
-- ==== Proof.Arrays.lean ====
/-
  The two whole-array functions the pallas_calls compute, and why their composition through the two reshapes is the
  specification.

  The first call contracts the FLATTENED weight `wbf[m·256 + e, j]` with the king embedding into a flat
  `wkf[b, m·256 + e]`; the second reads that result reshaped to `[16, 512, 256]`. A reshape keeps the row-major position,
  and `(m·256 + e)·256 + j` is the position of `(m, e, j)` while `b·131072 + (m·256 + e)` is the position of `(b, m, e)`;
  so entry `(b, m, e)` of the reshaped result is `Σ_j kemb[b, j] · wb[m, e, j]`, which is the specification's `wk`.
-/
import proofs.«111065_j35330400977464_1_alg».proof.Proof.Spec
import Idealize.ShloMosaic.Lib.Pipeline.Value

noncomputable section

namespace Cert.BilinearLN

open Idealize.ShloMosaic Idealize.ShloMosaic.ValueIdx Cert.Lib.LayerNormRows

/-- The flattened weight contracted with the king embedding: entry `(b, r)`. -/
def wkFlat (kemb : (⟨2, ![16, 256]⟩ : Shape).Idx → EReal) (wbf : (⟨2, ![131072, 256]⟩ : Shape).Idx → EReal) :
    (⟨2, ![16, 131072]⟩ : Shape).Idx → EReal :=
  fun i => ∑ j : Fin 256, kemb (ix2 (i 0) j) * wbf (ix2 (i 1) j)

theorem wkFlat_apply (kemb : (⟨2, ![16, 256]⟩ : Shape).Idx → EReal) (wbf : (⟨2, ![131072, 256]⟩ : Shape).Idx → EReal)
    (b : Fin 16) (r : Fin 131072) :
    wkFlat kemb wbf (ix2 b r) = ∑ j : Fin 256, kemb (ix2 b j) * wbf (ix2 r j) := rfl

/-- The layer-normalised bilinear form of a token array against a per-sample weight array: entry `(b, s, q)`. -/
def lnOut (tok : (⟨3, ![16, 2048, 256]⟩ : Shape).Idx → EReal) (wk3 : (⟨3, ![16, 512, 256]⟩ : Shape).Idx → EReal)
    (bb g β : (⟨1, ![512]⟩ : Shape).Idx → EReal) : (⟨3, ![16, 2048, 512]⟩ : Shape).Idx → EReal :=
  fun i => lnRow c512 eps
    (fun q' => (∑ e : Fin 256, tok (ix3 (i 0) (i 1) e) * wk3 (ix3 (i 0) q' e)) + bb (ix1 q'))
    (fun q' => g (ix1 q')) (fun q' => β (ix1 q')) (i 2)

theorem lnOut_apply (tok : (⟨3, ![16, 2048, 256]⟩ : Shape).Idx → EReal) (wk3 : (⟨3, ![16, 512, 256]⟩ : Shape).Idx → EReal)
    (bb g β : (⟨1, ![512]⟩ : Shape).Idx → EReal) (b : Fin 16) (s : Fin 2048) (q : Fin 512) :
    lnOut tok wk3 bb g β (ix3 b s q)
      = lnRow c512 eps (fun q' => (∑ e : Fin 256, tok (ix3 b s e) * wk3 (ix3 b q' e)) + bb (ix1 q'))
          (fun q' => g (ix1 q')) (fun q' => β (ix1 q')) q := rfl

/-- The normalised entry depends on the row, the scale and the shift only through their values. -/
theorem lnRow_congr {n : ℕ} (c ε : EReal) {x x' g g' β β' : Fin n → EReal} (hx : x = x') (hg : g = g') (hβ : β = β')
    (q : Fin n) : lnRow c ε x g β q = lnRow c ε x' g' β' q := by subst hx hg hβ; rfl

/-- Two functions of a two-axis index agree when they agree at every pair of coordinates. -/
theorem ext_ix2 {n0 n1 : ℕ} {α : Type} {f g : (⟨2, ![n0, n1]⟩ : Shape).Idx → α}
    (h : ∀ (p : Fin n0) (q : Fin n1), f (ix2 p q) = g (ix2 p q)) : f = g :=
  funext fun y => by rw [eq_ix2 y]; exact h _ _

/-- Two functions of a three-axis index agree when they agree at every triple of coordinates. -/
theorem ext_ix3 {n0 n1 n2 : ℕ} {α : Type} {f g : (⟨3, ![n0, n1, n2]⟩ : Shape).Idx → α}
    (h : ∀ (p : Fin n0) (q : Fin n1) (r : Fin n2), f (ix3 p q r) = g (ix3 p q r)) : f = g :=
  funext fun y => by rw [eq_ix3 y]; exact h _ _ _

/-- Entry `(b, q, e)` of the first call's result, reshaped, over the weight, flattened: the specification's `wk`. -/
theorem wk_of_flat (kemb : (⟨2, ![16, 256]⟩ : Shape).Idx → EReal) (wb : (⟨3, ![512, 256, 256]⟩ : Shape).Idx → EReal)
    (h1 : (⟨3, ![512, 256, 256]⟩ : Shape).ShapeCasts ⟨2, ![131072, 256]⟩)
    (h2 : (⟨2, ![16, 131072]⟩ : Shape).ShapeCasts ⟨3, ![16, 512, 256]⟩) (b : Fin 16) (q : Fin 512) (e : Fin 256) :
    shapeCast ⟨3, ![16, 512, 256]⟩ (wkFlat kemb (shapeCast ⟨2, ![131072, 256]⟩ wb h1)) h2 (ix3 b q e)
      = wk kemb wb b q e := by
  have hR : q.val * 256 + e.val < 131072 := by have := q.isLt; have := e.isLt; omega
  refine (shapeCast_apply _ h2 (ix3 b q e) (ix2 b (⟨q.val * 256 + e.val, hR⟩ : Fin 131072)) (by
    rw [Shape.rowMajor_val_two, Shape.rowMajor_val_three]
    show b.val * 131072 + (q.val * 256 + e.val) = (b.val * 512 + q.val) * 256 + e.val
    omega)).trans ?_
  rw [wkFlat_apply]
  unfold wk
  refine Finset.sum_congr rfl fun j _ => congrArg (kemb (ix2 b j) * ·) ?_
  exact shapeCast_apply wb h1 (ix2 (⟨q.val * 256 + e.val, hR⟩ : Fin 131072) j) (ix3 q e j) (by
    rw [Shape.rowMajor_val_three, Shape.rowMajor_val_two]
    show (q.val * 256 + e.val) * 256 + j.val = (q.val * 256 + e.val) * 256 + j.val
    rfl)

/-- THE BRIDGE: the second call's function of the first call's reshaped result is the specification. -/
theorem lnOut_wkFlat (tok : (⟨3, ![16, 2048, 256]⟩ : Shape).Idx → EReal) (kemb : (⟨2, ![16, 256]⟩ : Shape).Idx → EReal)
    (wb : (⟨3, ![512, 256, 256]⟩ : Shape).Idx → EReal) (bb g β : (⟨1, ![512]⟩ : Shape).Idx → EReal)
    (h1 : (⟨3, ![512, 256, 256]⟩ : Shape).ShapeCasts ⟨2, ![131072, 256]⟩)
    (h2 : (⟨2, ![16, 131072]⟩ : Shape).ShapeCasts ⟨3, ![16, 512, 256]⟩) :
    lnOut tok (shapeCast ⟨3, ![16, 512, 256]⟩ (wkFlat kemb (shapeCast ⟨2, ![131072, 256]⟩ wb h1)) h2) bb g β
      = out c512 eps tok kemb wb bb g β := by
  refine ext_ix3 fun b s q => ?_
  rw [lnOut_apply, out_apply]
  unfold outAt
  refine lnRow_congr c512 eps (funext fun q' => ?_) rfl rfl q
  unfold pre
  refine congrArg (· + bb (ix1 q')) (Finset.sum_congr rfl fun e _ => congrArg (tok (ix3 b s e) * ·) ?_)
  exact wk_of_flat kemb wb h1 h2 b q' e

end Cert.BilinearLN

end
-- ==== Proof.Region0.lean ====
/-
  The first pallas_call's result array, whole.

  Its grid has 32 points. At point `t` the king-embedding window is the whole `16 × 256` array, the weight window is
  rows `4096·t … 4096·t + 4095` of the flattened `131072 × 256` weight, and the output window is columns
  `4096·t … 4096·t + 4095` of the `16 × 131072` result. So what point `t` writes back is its block of ONE whole-array
  function, `(b, r) ↦ Σ_j kemb (b, j) · wbf (r, j)`, and the 32 column blocks tile the result.
-/
import proofs.«111065_j35330400977464_1_alg».proof.Proof.Gen.KernelIdeal.Frame
import proofs.«111065_j35330400977464_1_alg».proof.Proof.Bodies
import proofs.«111065_j35330400977464_1_alg».proof.Proof.Arrays
import Idealize.ShloMosaic.Lib.Pipeline.Value

set_option maxRecDepth 16384

noncomputable section

namespace Cert.KernelIdeal.Region0

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)
open Cert.BilinearLN

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the king embedding's block never moves, the weight's block index is the point
    on the row axis, the result's on the column axis. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

theorem t_lt (t : Fin cfg0.N) : t.val < 32 := lt_of_lt_of_eq t.isLt N_0

/-- The king-embedding block at any point is the whole array. -/
theorem blk_kemb (c : Dev nD) (t : Fin cfg0.N) (b : Fin 16) (j : Fin 256) :
    iblk0 V c 0 t (ix2 b j) = V c main_v23 (ix2 b j) := by
  show V c main_v23 (((cfg0.win 0).blk t).view.emb (ix2 b j)) = V c main_v23 (ix2 b j)
  obtain ⟨e0, e1, -⟩ := idx_facts t
  refine congrArg _ (funext fun a => Fin.ext ?_)
  match a with
  | ⟨0, _⟩ => show win0_0.index t (0 : Fin 2) * 16 + 1 * b.val = b.val; omega
  | ⟨1, _⟩ => show win0_0.index t (1 : Fin 2) * 256 + 1 * j.val = j.val; omega

/-- The weight block at point `t` is rows `4096·t + r` of the flattened weight. -/
theorem blk_wbf (c : Dev nD) (t : Fin cfg0.N) (r : Fin 4096) (j : Fin 256) (R : Fin 131072)
    (hR : R.val = t.val * 4096 + r.val) :
    iblk0 V c 1 t (ix2 r j) = V c main_v24 (ix2 R j) := by
  show V c main_v24 (((cfg0.win 1).blk t).view.emb (ix2 r j)) = V c main_v24 (ix2 R j)
  obtain ⟨-, -, e2, e3, -⟩ := idx_facts t
  refine congrArg _ (funext fun a => Fin.ext ?_)
  match a with
  | ⟨0, _⟩ => show win0_1.index t (0 : Fin 2) * 4096 + 1 * r.val = R.val; omega
  | ⟨1, _⟩ => show win0_1.index t (1 : Fin 2) * 256 + 1 * j.val = j.val; omega

/-- WHAT POINT `t` WRITES BACK is block `t` of the contracted weight of the arrays as the region finds them. -/
theorem flushed_eq (c : Dev nD) (t : Fin cfg0.N) :
    (dat0 V c).flushed 2 t
      = ((cfg0.win 2).blk t).view.read (Elt Ideal) (wkFlat (V c main_v23) (V c main_v24)) := by
  show (cfg0.win 2).cut (grid0.coords t) ((dat0 V c).after 2 t) = _
  rw [after0_2]
  unfold out0_2
  rw [View.canon_unit_zero hz]
  simp only [View.ld_unit_zero (S := S16x256) hz, View.ld_unit_zero (S := S4096x256) hz]
  refine ext_ix2 (n0 := 16) (n1 := 4096) fun b r => ?_
  have ht := t_lt t
  obtain ⟨-, -, -, -, e4, e5⟩ := idx_facts t
  let R : Fin 131072 := ⟨t.val * 4096 + r.val, by have := r.isLt; omega⟩
  have hemb : ((cfg0.win 2).blk t).view.emb (ix2 b r) = ix2 b R := funext fun a => Fin.ext (by
    match a with
    | ⟨0, _⟩ => show win0_2.index t (0 : Fin 2) * 16 + 1 * b.val = b.val; omega
    | ⟨1, _⟩ => show win0_2.index t (1 : Fin 2) * 4096 + 1 * r.val = t.val * 4096 + r.val; omega)
  show k0_pay1 (iblk0 V c 0 t) (iblk0 V c 1 t) (ix2 b r)
    = wkFlat (V c main_v23) (V c main_v24) (((cfg0.win 2).blk t).view.emb (ix2 b r))
  rw [hemb, wkFlat_apply]
  refine (pay0_apply (iblk0 V c 0 t) (iblk0 V c 1 t) b r).trans (Finset.sum_congr rfl fun j _ => ?_)
  exact congrArg₂ (· * ·) (blk_kemb V c t b j) (blk_wbf V c t r j R rfl)

/-- An index of the result is in point `t`'s block iff each coordinate is in the block's range on its axis. -/
theorem mem_blk (t : Fin cfg0.N) (i : S16x131072.Idx) :
    i ∈ ((cfg0.win 2).blk t).view.set ↔ ∀ a : Fin 2, win0_2.index t a * S16x4096.size a ≤ (i a).val
      ∧ (i a).val < win0_2.index t a * S16x4096.size a + S16x4096.size a := by
  show i ∈ ((View.whole main_v25).slice (win0_2.rect t)).set ↔ _
  rw [View.set_slice_whole, Rect.mem_set_unit]
  exact Iff.rfl

/-- Every index of the result lies in the block of the point its column falls in. -/
theorem cover (i : S16x131072.Idx) :
    ∃ t : Fin cfg0.N, (cfg0.win 2).flush t = true ∧ i ∈ ((cfg0.win 2).blk t).view.set := by
  have h0 : (i 0).val < 16 := (i 0).isLt
  have h1 : (i 1).val < 131072 := (i 1).isLt
  let t : Fin cfg0.N := ⟨(i 1).val / 4096, by rw [show cfg0.N = 32 from N_0]; omega⟩
  have htv : t.val = (i 1).val / 4096 := rfl
  obtain ⟨-, -, -, -, e4, e5⟩ := idx_facts t
  refine ⟨t, flush0_2 t, ?_⟩
  rw [mem_blk]
  intro a
  match a with
  | ⟨0, _⟩ =>
    show win0_2.index t (0 : Fin 2) * 16 ≤ (i 0).val ∧ (i 0).val < win0_2.index t (0 : Fin 2) * 16 + 16
    omega
  | ⟨1, _⟩ =>
    show win0_2.index t (1 : Fin 2) * 4096 ≤ (i 1).val ∧ (i 1).val < win0_2.index t (1 : Fin 2) * 4096 + 4096
    omega

/-- THE RESULT ARRAY after the region: the flattened weight contracted with the king embedding, as the region finds them. -/
theorem final (c : Dev nD) : (dat0 V c).arrAt 2 cfg0.N = wkFlat (V c main_v23) (V c main_v24) :=
  (dat0 V c).arrAt_eq_of_cover 2 (wkFlat (V c main_v23) (V c main_v24)) (fun t _ => flushed_eq V c t) cover

end Cert.KernelIdeal.Region0

end
-- ==== Proof.Region1.lean ====
/-
  The second pallas_call's result array, whole.

  Its grid has 16 points, one per sample. At point `t` the token window is sample `t`'s `2048 × 256` slab, the weight
  window sample `t`'s `512 × 256` slab, the bias, scale and shift windows the whole vectors, and the output window sample
  `t`'s `2048 × 512` slab of the result. So what point `t` writes back is its block of ONE whole-array function — at
  `(b, s, q)` the layer normalisation of the row `q' ↦ (Σ_e tok (b, s, e) · wk (b, q', e)) + bb q'` — and the 16 slabs
  tile the result.
-/
import proofs.«111065_j35330400977464_1_alg».proof.Proof.Gen.KernelIdeal.Frame
import proofs.«111065_j35330400977464_1_alg».proof.Proof.Bodies
import proofs.«111065_j35330400977464_1_alg».proof.Proof.Arrays
import Idealize.ShloMosaic.Lib.Pipeline.Value

set_option maxRecDepth 16384

noncomputable section

namespace Cert.KernelIdeal.Region1

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)
open Cert.BilinearLN Cert.Lib.LayerNormRows

variable (V : (c : Dev nD) → (b : Ref sig .tc) → Buf (Elt Ideal) ((c : Thread nD τ).loc b))

theorem hz3 : (![0, 0, 0] : Fin 3 → Nat) = fun _ => 0 := funext fun a => by fin_cases a <;> rfl
theorem hz1 : (![0] : Fin 1 → Nat) = fun _ => 0 := funext fun a => by fin_cases a; rfl

/-- The printed index maps over the grid: the token, weight and result blocks are the point's sample; the three vectors'
    blocks never move. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 1) = 0 ∧ win1_3.index t (0 : Fin 1) = 0 ∧ win1_4.index t (0 : Fin 1) = 0
    ∧ win1_5.index t (0 : Fin 3) = t.val ∧ win1_5.index t (1 : Fin 3) = 0 ∧ win1_5.index t (2 : Fin 3) = 0 :=
  (by decide +kernel : ∀ t : Fin grid1.N, _)

theorem t_lt (t : Fin cfg1.N) : t.val < 16 := lt_of_lt_of_eq t.isLt N_1

/-- The token block at point `t` is sample `t`'s slab. -/
theorem blk_tok (c : Dev nD) (t : Fin cfg1.N) (u : Fin 1) (s : Fin 2048) (e : Fin 256) (b : Fin 16) (hb : b.val = t.val) :
    iblk1 V c 0 t (ix3 u s e) = V c main_v16 (ix3 b s e) := by
  show V c main_v16 (((cfg1.win 0).blk t).view.emb (ix3 u s e)) = V c main_v16 (ix3 b s e)
  obtain ⟨e0, e1, e2, -⟩ := idx_facts t
  refine congrArg _ (funext fun a => Fin.ext ?_)
  match a with
  | ⟨0, _⟩ => show win1_0.index t (0 : Fin 3) * 1 + 1 * u.val = b.val; omega
  | ⟨1, _⟩ => show win1_0.index t (1 : Fin 3) * 2048 + 1 * s.val = s.val; omega
  | ⟨2, _⟩ => show win1_0.index t (2 : Fin 3) * 256 + 1 * e.val = e.val; omega

/-- The weight block at point `t` is sample `t`'s slab. -/
theorem blk_wk (c : Dev nD) (t : Fin cfg1.N) (u : Fin 1) (q : Fin 512) (e : Fin 256) (b : Fin 16) (hb : b.val = t.val) :
    iblk1 V c 1 t (ix3 u q e) = V c main_v26 (ix3 b q e) := by
  show V c main_v26 (((cfg1.win 1).blk t).view.emb (ix3 u q e)) = V c main_v26 (ix3 b q e)
  obtain ⟨-, -, -, e0, e1, e2, -⟩ := idx_facts t
  refine congrArg _ (funext fun a => Fin.ext ?_)
  match a with
  | ⟨0, _⟩ => show win1_1.index t (0 : Fin 3) * 1 + 1 * u.val = b.val; omega
  | ⟨1, _⟩ => show win1_1.index t (1 : Fin 3) * 512 + 1 * q.val = q.val; omega
  | ⟨2, _⟩ => show win1_1.index t (2 : Fin 3) * 256 + 1 * e.val = e.val; omega

/-- The bias, scale and shift blocks at any point are the whole vectors. -/
theorem blk_bb (c : Dev nD) (t : Fin cfg1.N) (q : Fin 512) : iblk1 V c 2 t (ix1 q) = V c main_arg4 (ix1 q) := by
  show V c main_arg4 (((cfg1.win 2).blk t).view.emb (ix1 q)) = V c main_arg4 (ix1 q)
  obtain ⟨-, -, -, -, -, -, e0, -⟩ := idx_facts t
  refine congrArg _ (funext fun a => Fin.ext ?_)
  match a with
  | ⟨0, _⟩ => show win1_2.index t (0 : Fin 1) * 512 + 1 * q.val = q.val; omega
theorem blk_g (c : Dev nD) (t : Fin cfg1.N) (q : Fin 512) : iblk1 V c 3 t (ix1 q) = V c main_arg6 (ix1 q) := by
  show V c main_arg6 (((cfg1.win 3).blk t).view.emb (ix1 q)) = V c main_arg6 (ix1 q)
  obtain ⟨-, -, -, -, -, -, -, e0, -⟩ := idx_facts t
  refine congrArg _ (funext fun a => Fin.ext ?_)
  match a with
  | ⟨0, _⟩ => show win1_3.index t (0 : Fin 1) * 512 + 1 * q.val = q.val; omega
theorem blk_beta (c : Dev nD) (t : Fin cfg1.N) (q : Fin 512) : iblk1 V c 4 t (ix1 q) = V c main_arg7 (ix1 q) := by
  show V c main_arg7 (((cfg1.win 4).blk t).view.emb (ix1 q)) = V c main_arg7 (ix1 q)
  obtain ⟨-, -, -, -, -, -, -, -, e0, -⟩ := idx_facts t
  refine congrArg _ (funext fun a => Fin.ext ?_)
  match a with
  | ⟨0, _⟩ => show win1_4.index t (0 : Fin 1) * 512 + 1 * q.val = q.val; omega

/-- WHAT POINT `t` WRITES BACK is sample `t`'s slab of the layer-normalised bilinear form of the arrays as the region
    finds them. -/
theorem flushed_eq (c : Dev nD) (t : Fin cfg1.N) :
    (dat1 V c).flushed 5 t
      = ((cfg1.win 5).blk t).view.read (Elt Ideal)
          (lnOut (V c main_v16) (V c main_v26) (V c main_arg4) (V c main_arg6) (V c main_arg7)) := by
  show (cfg1.win 5).cut (grid1.coords t) ((dat1 V c).after 5 t) = _
  rw [after1_5]
  unfold out1_5
  rw [View.canon_unit_zero hz3]
  simp only [View.ld_unit_zero (S := S1x2048x256) hz3, View.ld_unit_zero (S := S1x512x256) hz3,
    View.ld_unit_zero (S := S512) hz1]
  refine ext_ix3 (n0 := 1) (n1 := 2048) (n2 := 512) fun u s q => ?_
  have ht := t_lt t
  obtain ⟨-, -, -, -, -, -, -, -, -, e9, e10, e11⟩ := idx_facts t
  let b : Fin 16 := ⟨t.val, ht⟩
  have hemb : ((cfg1.win 5).blk t).view.emb (ix3 u s q) = ix3 b s q := funext fun a => Fin.ext (by
    match a with
    | ⟨0, _⟩ => show win1_5.index t (0 : Fin 3) * 1 + 1 * u.val = t.val; omega
    | ⟨1, _⟩ => show win1_5.index t (1 : Fin 3) * 2048 + 1 * s.val = s.val; omega
    | ⟨2, _⟩ => show win1_5.index t (2 : Fin 3) * 512 + 1 * q.val = q.val; omega)
  show k1_pay1 (iblk1 V c 0 t) (iblk1 V c 1 t) (iblk1 V c 2 t) (iblk1 V c 3 t) (iblk1 V c 4 t) (ix3 u s q)
    = lnOut (V c main_v16) (V c main_v26) (V c main_arg4) (V c main_arg6) (V c main_arg7)
        (((cfg1.win 5).blk t).view.emb (ix3 u s q))
  rw [hemb, lnOut_apply]
  refine (pay1_apply (iblk1 V c 0 t) (iblk1 V c 1 t) (iblk1 V c 2 t) (iblk1 V c 3 t) (iblk1 V c 4 t) u s q).trans ?_
  exact lnRow_congr c512 eps
    (funext fun q' => congrArg₂ (fun x y : EReal => x + y)
      (Finset.sum_congr rfl fun e _ =>
        congrArg₂ (fun x y : EReal => x * y) (blk_tok V c t 0 s e b rfl) (blk_wk V c t 0 q' e b rfl))
      (blk_bb V c t q'))
    (funext fun q' => blk_g V c t q') (funext fun q' => blk_beta V c t q') q

/-- An index of the result is in point `t`'s block iff each coordinate is in the block's range on its axis. -/
theorem mem_blk (t : Fin cfg1.N) (i : S16x2048x512.Idx) :
    i ∈ ((cfg1.win 5).blk t).view.set ↔ ∀ a : Fin 3, win1_5.index t a * S1x2048x512.size a ≤ (i a).val
      ∧ (i a).val < win1_5.index t a * S1x2048x512.size a + S1x2048x512.size a := by
  show i ∈ ((View.whole main_v27).slice (win1_5.rect t)).set ↔ _
  rw [View.set_slice_whole, Rect.mem_set_unit]
  exact Iff.rfl

/-- Every index of the result lies in the block of its sample's point. -/
theorem cover (i : S16x2048x512.Idx) :
    ∃ t : Fin cfg1.N, (cfg1.win 5).flush t = true ∧ i ∈ ((cfg1.win 5).blk t).view.set := by
  have h0 : (i 0).val < 16 := (i 0).isLt
  have h1 : (i 1).val < 2048 := (i 1).isLt
  have h2 : (i 2).val < 512 := (i 2).isLt
  let t : Fin cfg1.N := ⟨(i 0).val, by rw [show cfg1.N = 16 from N_1]; exact h0⟩
  have htv : t.val = (i 0).val := rfl
  obtain ⟨-, -, -, -, -, -, -, -, -, e9, e10, e11⟩ := idx_facts t
  refine ⟨t, flush1_5 t, ?_⟩
  rw [mem_blk]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 2048 ≤ (i 1).val ∧ (i 1).val < win1_5.index t (1 : Fin 3) * 2048 + 2048
    omega
  | ⟨2, _⟩ =>
    show win1_5.index t (2 : Fin 3) * 512 ≤ (i 2).val ∧ (i 2).val < win1_5.index t (2 : Fin 3) * 512 + 512
    omega

/-- THE RESULT ARRAY after the region: the layer-normalised bilinear form of the arrays as the region finds them. -/
theorem final (c : Dev nD) :
    (dat1 V c).arrAt 5 cfg1.N
      = lnOut (V c main_v16) (V c main_v26) (V c main_arg4) (V c main_arg6) (V c main_arg7) :=
  (dat1 V c).arrAt_eq_of_cover 5 (lnOut (V c main_v16) (V c main_v26) (V c main_arg4) (V c main_arg6) (V c main_arg7))
    (fun t _ => flushed_eq V c t) cover

end Cert.KernelIdeal.Region1

end
-- ==== Proof.HostReads.lean ====
/-
  What the two pallas_calls find in their arrays, as functions of the launch memory.

  Before the first call the host operations gather the king embedding and flatten the weight; nothing between the calls
  touches the gathered token embedding or the three vectors, and the one operation between them reshapes the first
  call's result. The two gathers are the reference's own operations on the same arguments, so they are stated as the
  reference's terms and never opened.
-/
import proofs.«111065_j35330400977464_1_alg».proof.Proof.Gen.KernelIdeal.Frame
import proofs.«111065_j35330400977464_1_alg».proof.Proof.Gen.ReferenceIdeal.Read
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first call's king-embedding array is the gather of the king table at the normalised king ids. -/
theorem kemb_eq (c : Dev nD) :
    V1 m ρ c main_v23
      = Cert.ReferenceIdeal.Read.val_main_v23 (F := Ideal) (m ((c : Thread nD τ).loc main_arg1))
          (m ((c : Thread nD τ).loc main_arg5)) := by
  show StableHlo.after hostOps0 (W0 m ρ c) (Proc.devRef .tc main_v23) = _
  after_results_simp <;> rfl

/-- The first call's weight array is the bilinear weight, flattened. -/
theorem wbf_eq (c : Dev nD) :
    V1 m ρ c main_v24
      = shapeCast S131072x256 (m ((c : Thread nD τ).loc main_arg3)) shapeCasts_S512x256x256_S131072x256 := by
  show StableHlo.after hostOps0 (W0 m ρ c) (Proc.devRef .tc main_v24) = _
  after_results_simp <;> rfl

/-- A buffer the reshape between the calls does not write is, at the second call's entry, what the first call left. -/
theorem v3_of_ne (c : Dev nD) (b : Ref sig .tc) (hb : b ≠ main_v26) :
    V3 m ρ c b = W2 m ρ c (Proc.devRef .tc b) := by
  show StableHlo.after hostOps1 (W2 m ρ c) (Proc.devRef .tc b) = _
  simp only [after_cons, after_nil]
  exact reshape_result_ne _ _ _ _ _ _ _ hb

/-- The second call's token array is the gather of the token tables at the normalised (king, token) ids. -/
theorem tok_eq (c : Dev nD) :
    V3 m ρ c main_v16
      = Cert.ReferenceIdeal.Read.val_main_v16 (F := Ideal) (m ((c : Thread nD τ).loc main_arg0))
          (m ((c : Thread nD τ).loc main_arg1)) (m ((c : Thread nD τ).loc main_arg2)) := by
  rw [v3_of_ne m ρ c main_v16 (by decide), W2_of_ne m ρ c main_v16 (by decide)]
  show StableHlo.after hostOps0 (W0 m ρ c) (Proc.devRef .tc main_v16) = _
  after_results_simp <;> rfl

/-- The second call's weight array is the first call's result, reshaped to one slab per sample. -/
theorem wk3_eq (c : Dev nD) :
    V3 m ρ c main_v26
      = shapeCast S16x512x256 (W2 m ρ c (Proc.devRef .tc main_v25)) shapeCasts_S16x131072_S16x512x256 := by
  show StableHlo.after hostOps1 (W2 m ρ c) (Proc.devRef .tc main_v26) = _
  after_results_simp <;> rfl

/-- The bias, the scale and the shift reach the second call as launched. -/
theorem bb_eq (c : Dev nD) : V3 m ρ c main_arg4 = m ((c : Thread nD τ).loc main_arg4) := by
  rw [v3_of_ne m ρ c main_arg4 (by decide), W2_of_ne m ρ c main_arg4 (by decide)]
  show StableHlo.after hostOps0 (W0 m ρ c) (Proc.devRef .tc main_arg4) = _
  after_results_simp <;> rfl
theorem gamma_eq (c : Dev nD) : V3 m ρ c main_arg6 = m ((c : Thread nD τ).loc main_arg6) := by
  rw [v3_of_ne m ρ c main_arg6 (by decide), W2_of_ne m ρ c main_arg6 (by decide)]
  show StableHlo.after hostOps0 (W0 m ρ c) (Proc.devRef .tc main_arg6) = _
  after_results_simp <;> rfl
theorem beta_eq (c : Dev nD) : V3 m ρ c main_arg7 = m ((c : Thread nD τ).loc main_arg7) := by
  rw [v3_of_ne m ρ c main_arg7 (by decide), W2_of_ne m ρ c main_arg7 (by decide)]
  show StableHlo.after hostOps0 (W0 m ρ c) (Proc.devRef .tc main_arg7) = _
  after_results_simp <;> rfl

end Cert.KernelIdeal.HostReads

end
-- ==== Proof.KernelValue.lean ====
/-
  The idealized kernel's result, as one function of the launch memory.

  The result buffer ends at the second pallas_call's array; that array is the layer-normalised bilinear form of what the
  call finds; what it finds is the gathered token embedding, the first call's result reshaped, and the three vectors; the
  first call's result is the flattened weight contracted with the gathered king embedding; and through the two reshapes
  this composition is the specification (`Cert.BilinearLN.lnOut_wkFlat`).
-/
import proofs.«111065_j35330400977464_1_alg».proof.Proof.KernelRun
import proofs.«111065_j35330400977464_1_alg».proof.Proof.Region0
import proofs.«111065_j35330400977464_1_alg».proof.Proof.Region1
import proofs.«111065_j35330400977464_1_alg».proof.Proof.HostReads

set_option maxRecDepth 16384

noncomputable section

namespace Cert.KernelIdeal.KValue

open Cert.KernelIdeal Cert.KernelIdeal.Gen
open Idealize.ShloMosaic Idealize.ShloMosaic.TcCoe Idealize.SL.Sem
open Cert.BilinearLN

variable (m : (ℓ : Loc nD τ sig) → Buf (Elt Ideal) ℓ) (ρ : Dev nD → PrngReg)

/-- The specification at the launch memory: the layer-normalised bilinear form of the two gathered embeddings. -/
def G (c : Dev nD) : Buf (Elt Ideal) ((c.tc : Thread nD τ).loc main_v27) :=
  out c512 eps
    (Cert.ReferenceIdeal.Read.val_main_v16 (F := Ideal) (m ((c : Thread nD τ).loc main_arg0))
      (m ((c : Thread nD τ).loc main_arg1)) (m ((c : Thread nD τ).loc main_arg2)))
    (Cert.ReferenceIdeal.Read.val_main_v23 (F := Ideal) (m ((c : Thread nD τ).loc main_arg1))
      (m ((c : Thread nD τ).loc main_arg5)))
    (m ((c : Thread nD τ).loc main_arg3)) (m ((c : Thread nD τ).loc main_arg4))
    (m ((c : Thread nD τ).loc main_arg6)) (m ((c : Thread nD τ).loc main_arg7))

/-- The result buffer's contents at the last boundary are the specification. -/
theorem value (c : Dev nD) : W4 m ρ c (Proc.devRef .tc main_v27) = G m c := by
  have h4 : W4 m ρ c (Proc.devRef .tc main_v27) = (dat1 (V3 m ρ) c).arrAt 5 cfg1.N := W4_arr m ρ c 5
  have h2 : W2 m ρ c (Proc.devRef .tc main_v25) = (dat0 (V1 m ρ) c).arrAt 2 cfg0.N := W2_arr m ρ c 2
  rw [h4, Cert.KernelIdeal.Region1.final (V3 m ρ) c, Cert.KernelIdeal.HostReads.tok_eq,
    Cert.KernelIdeal.HostReads.wk3_eq, Cert.KernelIdeal.HostReads.bb_eq, Cert.KernelIdeal.HostReads.gamma_eq,
    Cert.KernelIdeal.HostReads.beta_eq, h2, Cert.KernelIdeal.Region0.final (V1 m ρ) c,
    Cert.KernelIdeal.HostReads.kemb_eq, Cert.KernelIdeal.HostReads.wbf_eq]
  exact lnOut_wkFlat _ _ _ _ _ _ _ _

/-- Every weakly fair execution of the idealized kernel terminates, nothing faulting, with the result at the
    specification and the arguments as launched. -/
theorem run : θ_run defs (onTc (τ := τ) (main (F := Ideal))) ⟨m, fun _ => 0, ρ⟩ (fun r => ∀ c : Dev nD,
      r.2.mem ((c.tc : Thread nD τ).loc main_v27) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (Cert.KernelIdeal.Run.run m ρ)

end Cert.KernelIdeal.KValue

end
-- ==== Proof.lean ====
/-
  A bilinear layer followed by a layer normalisation, as two pallas_calls, against its jnp reference, on the extended
  reals.

  Both programs gather a token embedding `tok[b, s, e]` and a king embedding `kemb[b, j]` by the same host operations on
  the same arguments. The reference contracts the bilinear weight with the king embedding
  (`wk[b, q, e] = Σ_j kemb[b, j] · wb[q, e, j]`), then the tokens with that (`Σ_e tok[b, s, e] · wk[b, q, e]`, plus a
  bias), and layer-normalises each row over `q`. The kernel computes `wk` in a first call on the weight FLATTENED to
  `[512·256, 256]`, 4096 rows per grid point, reshapes the result to `[16, 512, 256]`, and in a second call, one sample
  per grid point, forms the biased product and normalises it. At the ideal values a change of float format is the
  identity and the matrix unit's product into a zero accumulator is the plain sum of products, so the two programs
  compute the same term entry by entry: only the tiling and the two reshapes lie between them, and a reshape keeps the
  row-major position. No law that needs finiteness is used, so the precondition is never opened.

  The frames of the two kernel programs are the generated ones; the reference's frame is its generated run with the result
  dropped; the idealization rewrote nothing. The parts of the value argument: each body's stored block at an entry
  (`Bodies`), each call's whole result array from its blocks (`Region0`, `Region1`), what each call finds in its arrays
  (`HostReads`), the kernel's run with its result named (`KernelRun`, `KernelValue`), the reference's result at an entry
  (`RefValue`), and the bridge through the reshapes (`Arrays`).
-/
import proofs.«111065_j35330400977464_1_alg».proof.Defs
import proofs.«111065_j35330400977464_1_alg».proof.Proof.Gen.Kernel
import proofs.«111065_j35330400977464_1_alg».proof.Proof.Gen.Kernel.Skeleton
import proofs.«111065_j35330400977464_1_alg».proof.Proof.Gen.Kernel.Launch
import proofs.«111065_j35330400977464_1_alg».proof.Proof.Gen.Kernel.Points
import proofs.«111065_j35330400977464_1_alg».proof.Proof.Gen.Kernel.Frame
import proofs.«111065_j35330400977464_1_alg».proof.Proof.Gen.KernelIdeal
import proofs.«111065_j35330400977464_1_alg».proof.Proof.Gen.KernelIdeal.Skeleton
import proofs.«111065_j35330400977464_1_alg».proof.Proof.Gen.KernelIdeal.Launch
import proofs.«111065_j35330400977464_1_alg».proof.Proof.Gen.KernelIdeal.Points
import proofs.«111065_j35330400977464_1_alg».proof.Proof.Gen.KernelIdeal.Frame
import proofs.«111065_j35330400977464_1_alg».proof.Proof.Gen.ReferenceIdeal
import proofs.«111065_j35330400977464_1_alg».proof.Proof.Gen.Pre_finite_inputs
import proofs.«111065_j35330400977464_1_alg».proof.Proof.Gen.ReferenceIdeal.Run
import proofs.«111065_j35330400977464_1_alg».proof.Proof.Gen.ReferenceIdeal.Read
import proofs.«111065_j35330400977464_1_alg».proof.Proof.RefValue
import proofs.«111065_j35330400977464_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at the specification of those
    arguments: the kernel by its run read through the two calls, the reference by its run read one operation at a time. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.RefValue.result_eq]
  obtain ⟨h0, h1, h2, h3, h4, h5, h6, h7⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
